-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x300 : Shape := ⟨2, ![500000, 300]⟩
abbrev S500000 : Shape := ⟨1, ![500000]⟩
abbrev S300x300 : Shape := ⟨2, ![300, 300]⟩
abbrev S300 : Shape := ⟨1, ![300]⟩
abbrev S300x1 : Shape := ⟨2, ![300, 1]⟩
abbrev S1 : Shape := ⟨1, ![1]⟩
abbrev S_ : Shape := ⟨0, ![]⟩

class Facts : Prop where
  bcast_S_S500000x300 : S_.BroadcastsInDim S500000x300 (![] : Fin 0 → Fin S500000x300.rank)
  reducesTo_S500000x300_S_d0_1 : S500000x300.ReducesTo [0, 1] S_
  h_S_ : 0 < S_.numel
  bcast_S_S300x300 : S_.BroadcastsInDim S300x300 (![] : Fin 0 → Fin S300x300.rank)
  reducesTo_S300x300_S_d0_1 : S300x300.ReducesTo [0, 1] S_
  bcast_S_S300 : S_.BroadcastsInDim S300 (![] : Fin 0 → Fin S300.rank)
  reducesTo_S300_S_d0 : S300.ReducesTo [0] S_
  bcast_S_S300x1 : S_.BroadcastsInDim S300x1 (![] : Fin 0 → Fin S300x1.rank)
  reducesTo_S300x1_S_d0_1 : S300x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S300x1 .f32) (main_arg9 : FVec F S1 .f32) (main_v33 : IVec S_ 1) : IVec S_ 1 :=
  let main_v34 : FVec F S300x1 .f32 := Host.absf main_arg8
  let main_cst_12 : FVec F S_ .f32 := constant S_ .f32 0x7F800000#32
  let main_v35 : FVec F S300x1 .f32 := broadcastInDim S300x1 ![] bcast_S_S300x1 main_cst_12
  let main_v36 : IVec S300x1 1 := cmpf .olt main_v34 main_v35
  let main_c_13 : IVec S_ 1 := constantI S_ 1 1#1
  let main_v37 : IVec S_ 1 := (fun x v => Host.reduce IntOp.andi x v reducesTo_S300x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S1 .f32) (main_arg6 : FVec F S300x300 .f32) (main_arg7 : FVec F S300 .f32) (main_arg8 : FVec F S300x1 .f32) (main_arg9 : FVec F S1 .f32) (main_v13 : IVec S_ 1) (main_v16 : IVec S300x1 1) : IVec S_ 1 :=
  let main_c_5 : IVec S_ 1 := constantI S_ 1 1#1
  let main_v17 : IVec S_ 1 := (fun x v => Host.reduce IntOp.andi x v reducesTo_S300x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S300x300 .f32 := Host.absf main_arg6
  let main_cst_8 : FVec F S_ .f32 := constant S_ .f32 0x7F800000#32
  let main_v25 : FVec F S300x300 .f32 := broadcastInDim S300x300 ![] bcast_S_S300x300 main_cst_8
  let main_v26 : IVec S300x300 1 := cmpf .olt main_v24 main_v25
  let main_c_9 : IVec S_ 1 := constantI S_ 1 1#1
  let main_v27 : IVec S_ 1 := (fun x v => Host.reduce IntOp.andi x v reducesTo_S300x300_S_d0_1 h_S_) main_v26 main_c_9
  let main_v28 : IVec S_ 1 := andi main_v23 main_v27
  let main_v29 : FVec F S300 .f32 := Host.absf main_arg7
  let main_cst_10 : FVec F S_ .f32 := constant S_ .f32 0x7F800000#32
  let main_v30 : FVec F S300 .f32 := broadcastInDim S300 ![] bcast_S_S300 main_cst_10
  let main_v31 : IVec S300 1 := cmpf .olt main_v29 main_v30
  let main_c_11 : IVec S_ 1 := constantI S_ 1 1#1
  let main_v32 : IVec S_ 1 := (fun x v => Host.reduce IntOp.andi x v reducesTo_S300_S_d0 h_S_) main_v31 main_c_11
  let main_v33 : IVec S_ 1 := andi main_v28 main_v32
  fn_part2 (F := F) main_arg8 main_arg9 main_v33

def fn {F : FTy → Type} [FloatOps F] (main_arg0 : FVec F S500000x300 .f32) (main_arg1 : IVec S500000 32) (main_arg2 : FVec F S300x300 .f32) (main_arg3 : FVec F S300 .f32) (main_arg4 : FVec F S300x1 .f32) (main_arg5 : FVec F S1 .f32) (main_arg6 : FVec F S300x300 .f32) (main_arg7 : FVec F S300 .f32) (main_arg8 : FVec F S300x1 .f32) (main_arg9 : FVec F S1 .f32) : IVec S_ 1 :=
  let main_v0 : FVec F S500000x300 .f32 := Host.absf main_arg0
  let main_cst : FVec F S_ .f32 := constant S_ .f32 0x7F800000#32
  let main_v1 : FVec F S500000x300 .f32 := broadcastInDim S500000x300 ![] bcast_S_S500000x300 main_cst
  let main_v2 : IVec S500000x300 1 := cmpf .olt main_v0 main_v1
  let main_c : IVec S_ 1 := constantI S_ 1 1#1
  let main_v3 : IVec S_ 1 := (fun x v => Host.reduce IntOp.andi x v reducesTo_S500000x300_S_d0_1 h_S_) main_v2 main_c
  let main_v4 : FVec F S300x300 .f32 := Host.absf main_arg2
  let main_cst_0 : FVec F S_ .f32 := constant S_ .f32 0x7F800000#32
  let main_v5 : FVec F S300x300 .f32 := broadcastInDim S300x300 ![] bcast_S_S300x300 main_cst_0
  let main_v6 : IVec S300x300 1 := cmpf .olt main_v4 main_v5
  let main_c_1 : IVec S_ 1 := constantI S_ 1 1#1
  let main_v7 : IVec S_ 1 := (fun x v => Host.reduce IntOp.andi x v reducesTo_S300x300_S_d0_1 h_S_) main_v6 main_c_1
  let main_v8 : IVec S_ 1 := andi main_v3 main_v7
  let main_v9 : FVec F S300 .f32 := Host.absf main_arg3
  let main_cst_2 : FVec F S_ .f32 := constant S_ .f32 0x7F800000#32
  let main_v10 : FVec F S300 .f32 := broadcastInDim S300 ![] bcast_S_S300 main_cst_2
  let main_v11 : IVec S300 1 := cmpf .olt main_v9 main_v10
  let main_c_3 : IVec S_ 1 := constantI S_ 1 1#1
  let main_v12 : IVec S_ 1 := (fun x v => Host.reduce IntOp.andi x v reducesTo_S300_S_d0 h_S_) main_v11 main_c_3
  let main_v13 : IVec S_ 1 := andi main_v8 main_v12
  let main_v14 : FVec F S300x1 .f32 := Host.absf main_arg4
  let main_cst_4 : FVec F S_ .f32 := constant S_ .f32 0x7F800000#32
  let main_v15 : FVec F S300x1 .f32 := broadcastInDim S300x1 ![] bcast_S_S300x1 main_cst_4
  let main_v16 : IVec S300x1 1 := cmpf .olt main_v14 main_v15
  fn_part1 (F := F) main_arg5 main_arg6 main_arg7 main_arg8 main_arg9 main_v13 main_v16
-- ==== Kernel.lean ====
abbrev S500000x300 : Shape := ⟨2, ![500000, 300]⟩
abbrev S500000 : Shape := ⟨1, ![500000]⟩
abbrev S300x300 : Shape := ⟨2, ![300, 300]⟩
abbrev S300 : Shape := ⟨1, ![300]⟩
abbrev S300x1 : Shape := ⟨2, ![300, 1]⟩
abbrev S1 : Shape := ⟨1, ![1]⟩
abbrev S1x300 : Shape := ⟨2, ![1, 300]⟩
abbrev S1x1 : Shape := ⟨2, ![1, 1]⟩
abbrev S500000x1 : Shape := ⟨2, ![500000, 1]⟩
abbrev S2000x300 : Shape := ⟨2, ![2000, 300]⟩
abbrev S2000x1 : Shape := ⟨2, ![2000, 1]⟩
abbrev S_ : Shape := ⟨0, ![]⟩
abbrev S25000 : Shape := ⟨1, ![25000]⟩

abbrev nBuf : Space → Nat
  | .hbm => 53
  | .vmem => 14
  | .smem => 0
  | _ => 0

abbrev bufTy : (tb : Table) → Fin (tcTables nBuf tb) → BufTy
  | .hbm, ⟨0, _⟩ => ⟨S500000x300, .f32⟩
  | .hbm, ⟨1, _⟩ => ⟨S500000, .i32⟩
  | .hbm, ⟨2, _⟩ => ⟨S300x300, .f32⟩
  | .hbm, ⟨3, _⟩ => ⟨S300, .f32⟩
  | .hbm, ⟨4, _⟩ => ⟨S300x1, .f32⟩
  | .hbm, ⟨5, _⟩ => ⟨S1, .f32⟩
  | .hbm, ⟨6, _⟩ => ⟨S300x300, .f32⟩
  | .hbm, ⟨7, _⟩ => ⟨S300, .f32⟩
  | .hbm, ⟨8, _⟩ => ⟨S300x1, .f32⟩
  | .hbm, ⟨9, _⟩ => ⟨S1, .f32⟩
  | .hbm, ⟨10, _⟩ => ⟨S300x300, .bf16⟩
  | .hbm, ⟨11, _⟩ => ⟨S300x1, .bf16⟩
  | .hbm, ⟨12, _⟩ => ⟨S300x300, .bf16⟩
  | .hbm, ⟨13, _⟩ => ⟨S300x1, .bf16⟩
  | .hbm, ⟨14, _⟩ => ⟨S1x300, .f32⟩
  | .hbm, ⟨15, _⟩ => ⟨S1x1, .f32⟩
  | .hbm, ⟨16, _⟩ => ⟨S1x300, .f32⟩
  | .hbm, ⟨17, _⟩ => ⟨S1x1, .f32⟩
  | .hbm, ⟨18, _⟩ => ⟨S500000x1, .f32⟩
  | .hbm, ⟨19, _⟩ => ⟨S500000x1, .f32⟩
  | .hbm, ⟨20, _⟩ => ⟨S500000, .f32⟩
  | .hbm, ⟨21, _⟩ => ⟨S_, .f32⟩
  | .hbm, ⟨22, _⟩ => ⟨S25000, .f32⟩
  | .hbm, ⟨23, _⟩ => ⟨S500000x1, .i32⟩
  | .hbm, ⟨24, _⟩ => ⟨S25000, .f32⟩
  | .hbm, ⟨25, _⟩ => ⟨S500000, .f32⟩
  | .hbm, ⟨26, _⟩ => ⟨S_, .f32⟩
  | .hbm, ⟨27, _⟩ => ⟨S25000, .f32⟩
  | .hbm, ⟨28, _⟩ => ⟨S500000x1, .i32⟩
  | .hbm, ⟨29, _⟩ => ⟨S25000, .f32⟩
  | .hbm, ⟨30, _⟩ => ⟨S_, .f32⟩
  | .hbm, ⟨31, _⟩ => ⟨S25000, .f32⟩
  | .hbm, ⟨32, _⟩ => ⟨S25000, .i1⟩
  | .hbm, ⟨33, _⟩ => ⟨S_, .f32⟩
  | .hbm, ⟨34, _⟩ => ⟨S_, .f32⟩
  | .hbm, ⟨35, _⟩ => ⟨S25000, .f32⟩
  | .hbm, ⟨36, _⟩ => ⟨S25000, .f32⟩
  | .hbm, ⟨37, _⟩ => ⟨S_, .f32⟩
  | .hbm, ⟨38, _⟩ => ⟨S25000, .f32⟩
  | .hbm, ⟨39, _⟩ => ⟨S25000, .f32⟩
  | .hbm, ⟨40, _⟩ => ⟨S25000, .f32⟩
  | .hbm, ⟨41, _⟩ => ⟨S_, .i32⟩
  | .hbm, ⟨42, _⟩ => ⟨S500000, .i32⟩
  | .hbm, ⟨43, _⟩ => ⟨S500000, .i1⟩
  | .hbm, ⟨44, _⟩ => ⟨S_, .i32⟩
  | .hbm, ⟨45, _⟩ => ⟨S500000, .i32⟩
  | .hbm, ⟨46, _⟩ => ⟨S500000, .i32⟩
  | .hbm, ⟨47, _⟩ => ⟨S500000, .i32⟩
  | .hbm, ⟨48, _⟩ => ⟨S500000x1, .i32⟩
  | .hbm, ⟨49, _⟩ => ⟨S500000, .f32⟩
  | .hbm, ⟨50, _⟩ => ⟨S500000x1, .f32⟩
  | .hbm, ⟨51, _⟩ => ⟨S500000x1, .f32⟩
  | .hbm, ⟨52, _⟩ => ⟨S500000x1, .f32⟩
  | .local _ .vmem, ⟨0, _⟩ => ⟨S2000x300, .f32⟩
  | .local _ .vmem, ⟨1, _⟩ => ⟨S2000x300, .f32⟩
  | .local _ .vmem, ⟨2, _⟩ => ⟨S300x300, .bf16⟩
  | .local _ .vmem, ⟨3, _⟩ => ⟨S1x300, .f32⟩
  | .local _ .vmem, ⟨4, _⟩ => ⟨S300x1, .bf16⟩
  | .local _ .vmem, ⟨5, _⟩ => ⟨S1x1, .f32⟩
  | .local _ .vmem, ⟨6, _⟩ => ⟨S300x300, .bf16⟩
  | .local _ .vmem, ⟨7, _⟩ => ⟨S1x300, .f32⟩
  | .local _ .vmem, ⟨8, _⟩ => ⟨S300x1, .bf16⟩
  | .local _ .vmem, ⟨9, _⟩ => ⟨S1x1, .f32⟩
  | .local _ .vmem, ⟨10, _⟩ => ⟨S2000x1, .f32⟩
  | .local _ .vmem, ⟨11, _⟩ => ⟨S2000x1, .f32⟩
  | .local _ .vmem, ⟨12, _⟩ => ⟨S2000x1, .f32⟩
  | .local _ .vmem, ⟨13, _⟩ => ⟨S2000x1, .f32⟩
  | _, _ => ⟨S500000x300, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_v19 : Ref sig .tc := ⟨.hbm, 36, rfl⟩
abbrev main_cst_3 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c : Ref sig .tc := ⟨.hbm, 41, rfl⟩
abbrev main_v23 : Ref sig .tc := ⟨.hbm, 42, rfl⟩
abbrev main_v24 : Ref sig .tc := ⟨.hbm, 43, rfl⟩
abbrev main_c_4 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x300 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S300x300 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x300 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S300x1 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S300x300 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x300 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S300x1 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2000x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2000x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  bitsLt_bf16_f32 : FTy.bits .bf16 < FTy.bits .f32
  shapeCasts_S300_S1x300 : S300.ShapeCasts S1x300
  shapeCasts_S1_S1x1 : S1.ShapeCasts S1x1
  inb_S2000x300_S2000x300_0_0 : ∀ a, (![0, 0] : Fin 2 → Nat) a + S2000x300.size a ≤ S2000x300.size a
  h_S2000x300 : 0 < S2000x300.numel
  inb_S300x300_S300x300_0_0 : ∀ a, (![0, 0] : Fin 2 → Nat) a + S300x300.size a ≤ S300x300.size a
  h_S300x300 : 0 < S300x300.numel
  shapeCasts_S300x300_S300x300 : S300x300.ShapeCasts S300x300
  inb_S1x300_S1x300_0_0 : ∀ a, (![0, 0] : Fin 2 → Nat) a + S1x300.size a ≤ S1x300.size a
  h_S1x300 : 0 < S1x300.numel
  shapeCasts_S1x300_S1x300 : S1x300.ShapeCasts S1x300
  inb_S300x1_S300x1_0_0 : ∀ a, (![0, 0] : Fin 2 → Nat) a + S300x1.size a ≤ S300x1.size a
  h_S300x1 : 0 < S300x1.numel
  shapeCasts_S300x1_S300x1 : S300x1.ShapeCasts S300x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x300_S2000x300 : S1x300.Broadcasts S2000x300
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  shapeCasts_S500000x1_S500000 : S500000x1.ShapeCasts S500000
  bcast_S_S25000 : S_.BroadcastsInDim S25000 (![] : Fin 0 → Fin S25000.rank)
  bcast_S500000_S500000x1_0 : S500000.BroadcastsInDim S500000x1 (![0] : Fin 1 → Fin S500000x1.rank)
  bcast_S_S500000 : S_.BroadcastsInDim S500000 (![] : Fin 0 → Fin S500000.rank)
  dot_S2000x300_S300x300_S2000x300_1_0_0_1_n_n_wf : DotDims.WF S2000x300 S300x300 S2000x300 [1] [0] [0] [1] [] []
  dot_S2000x300_S300x1_S2000x1_1_0_0_1_n_n_wf : DotDims.WF S2000x300 S300x1 S2000x1 [1] [0] [0] [1] [] []
  scatter_S25000_S500000x1_S500000_n_0_0_1_wf : ScatterDims.WF S25000 S500000x1 S500000 [] [0] [0] 1
  gather_S25000_S500000x1_S500000_n_0_n_n_0_1_1_wf : GatherDims.WF S25000 S500000x1 S500000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x300.size a ≤ S500000x300.size a
  hwx0_0 : ∀ i : grid0.Coords, EltTy.bits .f32 = 32 ∨ (Rect.block (s := S500000x300) S2000x300.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S300x300.size a ≤ S300x300.size a
  hwx0_1 : ∀ i : grid0.Coords, EltTy.bits .bf16 = 32 ∨ (Rect.block (s := S300x300) S300x300.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x300.size a ≤ S1x300.size a
  hwx0_2 : ∀ i : grid0.Coords, EltTy.bits .f32 = 32 ∨ (Rect.block (s := S1x300) S1x300.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S300x1.size a ≤ S300x1.size a
  hwx0_3 : ∀ i : grid0.Coords, EltTy.bits .bf16 = 32 ∨ (Rect.block (s := S300x1) S300x1.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S300x300.size a ≤ S300x300.size a
  hwx0_5 : ∀ i : grid0.Coords, EltTy.bits .bf16 = 32 ∨ (Rect.block (s := S300x300) S300x300.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x300.size a ≤ S1x300.size a
  hwx0_6 : ∀ i : grid0.Coords, EltTy.bits .f32 = 32 ∨ (Rect.block (s := S1x300) S1x300.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S300x1.size a ≤ S300x1.size a
  hwx0_7 : ∀ i : grid0.Coords, EltTy.bits .bf16 = 32 ∨ (Rect.block (s := S300x1) S300x1.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x1.size a ≤ S500000x1.size a
  hwx0_9 : ∀ i : grid0.Coords, EltTy.bits .f32 = 32 ∨ (Rect.block (s := S500000x1) S2000x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2000x1.size a ≤ S500000x1.size a
  hwx0_10 : ∀ i : grid0.Coords, EltTy.bits .f32 = 32 ∨ (Rect.block (s := S500000x1) S2000x1.size (cc0_transform_10 i) (hinb0_10 i)).WholeWords (EltTy.packing .f32)

variable [Facts₀]

def dot_S2000x300_S300x300_S2000x300_1_0_0_1_n_n : DotDims S2000x300 S300x300 S2000x300 where
  lhsContracting := [1]
  rhsContracting := [0]
  lhsNonContracting := [0]
  rhsNonContracting := [1]
  lhsBatch := []
  rhsBatch := []
  wf := dot_S2000x300_S300x300_S2000x300_1_0_0_1_n_n_wf
def dot_S2000x300_S300x1_S2000x1_1_0_0_1_n_n : DotDims S2000x300 S300x1 S2000x1 where
  lhsContracting := [1]
  rhsContracting := [0]
  lhsNonContracting := [0]
  rhsNonContracting := [1]
  lhsBatch := []
  rhsBatch := []
  wf := dot_S2000x300_S300x1_S2000x1_1_0_0_1_n_n_wf
def scatter_S25000_S500000x1_S500000_n_0_0_1 : ScatterDims S25000 S500000x1 S500000 where
  updateWindowDims := []
  insertedWindowDims := [0]
  scatterDimsToOperandDims := [0]
  indexVectorDim := 1
  wf := scatter_S25000_S500000x1_S500000_n_0_0_1_wf
def gather_S25000_S500000x1_S500000_n_0_n_n_0_1_1 : GatherDims S25000 S500000x1 S500000 where
  offsetDims := []
  collapsedSliceDims := [0]
  operandBatchingDims := []
  startIndicesBatchingDims := []
  startIndexMap := [0]
  indexVectorDim := 1
  sliceSizes := ![1]
  wf := gather_S25000_S500000x1_S500000_n_0_n_n_0_1_1_wf

abbrev win0_0 : Pipeline.Window sig grid0 :=
  Pipeline.Window.ofSpec (Memref.whole main_arg0) S2000x300.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S300x300.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x300.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S300x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S300x300.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x300.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S300x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v8_0) S2000x1.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v8_1) S2000x1.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S500000x300 : Shape := ⟨2, ![500000, 300]⟩
abbrev S500000 : Shape := ⟨1, ![500000]⟩
abbrev S300x300 : Shape := ⟨2, ![300, 300]⟩
abbrev S300 : Shape := ⟨1, ![300]⟩
abbrev S300x1 : Shape := ⟨2, ![300, 1]⟩
abbrev S1 : Shape := ⟨1, ![1]⟩
abbrev S1x300 : Shape := ⟨2, ![1, 300]⟩
abbrev S_ : Shape := ⟨0, ![]⟩
abbrev S500000x1 : Shape := ⟨2, ![500000, 1]⟩
abbrev S1x1 : Shape := ⟨2, ![1, 1]⟩
abbrev S25000 : Shape := ⟨1, ![25000]⟩

abbrev nBuf : Space → Nat
  | .hbm => 65
  | .vmem => 0
  | .smem => 0
  | _ => 0

abbrev bufTy : (tb : Table) → Fin (tcTables nBuf tb) → BufTy
  | .hbm, ⟨0, _⟩ => ⟨S500000x300, .f32⟩
  | .hbm, ⟨1, _⟩ => ⟨S500000, .i32⟩
  | .hbm, ⟨2, _⟩ => ⟨S300x300, .f32⟩
  | .hbm, ⟨3, _⟩ => ⟨S300, .f32⟩
  | .hbm, ⟨4, _⟩ => ⟨S300x1, .f32⟩
  | .hbm, ⟨5, _⟩ => ⟨S1, .f32⟩
  | .hbm, ⟨6, _⟩ => ⟨S300x300, .f32⟩
  | .hbm, ⟨7, _⟩ => ⟨S300, .f32⟩
  | .hbm, ⟨8, _⟩ => ⟨S300x1, .f32⟩
  | .hbm, ⟨9, _⟩ => ⟨S1, .f32⟩
  | .hbm, ⟨10, _⟩ => ⟨S500000x300, .f32⟩
  | .hbm, ⟨11, _⟩ => ⟨S1x300, .f32⟩
  | .hbm, ⟨12, _⟩ => ⟨S500000x300, .f32⟩
  | .hbm, ⟨13, _⟩ => ⟨S500000x300, .f32⟩
  | .hbm, ⟨14, _⟩ => ⟨S_, .f32⟩
  | .hbm, ⟨15, _⟩ => ⟨S500000x300, .f32⟩
  | .hbm, ⟨16, _⟩ => ⟨S500000x300, .f32⟩
  | .hbm, ⟨17, _⟩ => ⟨S500000x1, .f32⟩
  | .hbm, ⟨18, _⟩ => ⟨S1x1, .f32⟩
  | .hbm, ⟨19, _⟩ => ⟨S500000x1, .f32⟩
  | .hbm, ⟨20, _⟩ => ⟨S500000x1, .f32⟩
  | .hbm, ⟨21, _⟩ => ⟨S500000x300, .f32⟩
  | .hbm, ⟨22, _⟩ => ⟨S1x300, .f32⟩
  | .hbm, ⟨23, _⟩ => ⟨S500000x300, .f32⟩
  | .hbm, ⟨24, _⟩ => ⟨S500000x300, .f32⟩
  | .hbm, ⟨25, _⟩ => ⟨S_, .f32⟩
  | .hbm, ⟨26, _⟩ => ⟨S500000x300, .f32⟩
  | .hbm, ⟨27, _⟩ => ⟨S500000x300, .f32⟩
  | .hbm, ⟨28, _⟩ => ⟨S500000x1, .f32⟩
  | .hbm, ⟨29, _⟩ => ⟨S1x1, .f32⟩
  | .hbm, ⟨30, _⟩ => ⟨S500000x1, .f32⟩
  | .hbm, ⟨31, _⟩ => ⟨S500000x1, .f32⟩
  | .hbm, ⟨32, _⟩ => ⟨S500000, .f32⟩
  | .hbm, ⟨33, _⟩ => ⟨S_, .f32⟩
  | .hbm, ⟨34, _⟩ => ⟨S25000, .f32⟩
  | .hbm, ⟨35, _⟩ => ⟨S500000x1, .i32⟩
  | .hbm, ⟨36, _⟩ => ⟨S25000, .f32⟩
  | .hbm, ⟨37, _⟩ => ⟨S500000, .f32⟩
  | .hbm, ⟨38, _⟩ => ⟨S_, .f32⟩
  | .hbm, ⟨39, _⟩ => ⟨S25000, .f32⟩
  | .hbm, ⟨40, _⟩ => ⟨S500000x1, .i32⟩
  | .hbm, ⟨41, _⟩ => ⟨S25000, .f32⟩
  | .hbm, ⟨42, _⟩ => ⟨S_, .f32⟩
  | .hbm, ⟨43, _⟩ => ⟨S25000, .f32⟩
  | .hbm, ⟨44, _⟩ => ⟨S25000, .i1⟩
  | .hbm, ⟨45, _⟩ => ⟨S_, .f32⟩
  | .hbm, ⟨46, _⟩ => ⟨S_, .f32⟩
  | .hbm, ⟨47, _⟩ => ⟨S25000, .f32⟩
  | .hbm, ⟨48, _⟩ => ⟨S25000, .f32⟩
  | .hbm, ⟨49, _⟩ => ⟨S_, .f32⟩
  | .hbm, ⟨50, _⟩ => ⟨S25000, .f32⟩
  | .hbm, ⟨51, _⟩ => ⟨S25000, .f32⟩
  | .hbm, ⟨52, _⟩ => ⟨S25000, .f32⟩
  | .hbm, ⟨53, _⟩ => ⟨S_, .i32⟩
  | .hbm, ⟨54, _⟩ => ⟨S500000, .i32⟩
  | .hbm, ⟨55, _⟩ => ⟨S500000, .i1⟩
  | .hbm, ⟨56, _⟩ => ⟨S_, .i32⟩
  | .hbm, ⟨57, _⟩ => ⟨S500000, .i32⟩
  | .hbm, ⟨58, _⟩ => ⟨S500000, .i32⟩
  | .hbm, ⟨59, _⟩ => ⟨S500000, .i32⟩
  | .hbm, ⟨60, _⟩ => ⟨S500000x1, .i32⟩
  | .hbm, ⟨61, _⟩ => ⟨S500000, .f32⟩
  | .hbm, ⟨62, _⟩ => ⟨S500000x1, .f32⟩
  | .hbm, ⟨63, _⟩ => ⟨S500000x1, .f32⟩
  | .hbm, ⟨64, _⟩ => ⟨S500000x1, .f32⟩
  | _, _ => ⟨S500000x300, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_cst : Ref sig .tc := ⟨.hbm, 14, rfl⟩
abbrev main_call0_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_call1_cst : Ref sig .tc := ⟨.hbm, 25, rfl⟩
abbrev main_call1_v0 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_0 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_1 : Ref sig .tc := ⟨.hbm, 42, rfl⟩
abbrev main_v26 : Ref sig .tc := ⟨.hbm, 43, rfl⟩
abbrev main_v27 : Ref sig .tc := ⟨.hbm, 44, rfl⟩
abbrev main_cst_2 : Ref sig .tc := ⟨.hbm, 45, rfl⟩
abbrev main_call2_v0 : Ref sig .tc := ⟨.hbm, 46, rfl⟩
abbrev main_call2_v1 : Ref sig .tc := ⟨.hbm, 47, rfl⟩
abbrev main_v28 : Ref sig .tc := ⟨.hbm, 48, rfl⟩
abbrev main_cst_3 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_c : Ref sig .tc := ⟨.hbm, 53, rfl⟩
abbrev main_v32 : Ref sig .tc := ⟨.hbm, 54, rfl⟩
abbrev main_v33 : Ref sig .tc := ⟨.hbm, 55, rfl⟩
abbrev main_c_4 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩

abbrev nD : Nat := 1
abbrev τ : Topo := Topo.v7x

variable {F : FTy → Type} [FloatOps F]

class Facts₀ : Prop where
  bcast_S300_S1x300_1 : S300.BroadcastsInDim S1x300 (![1] : Fin 1 → Fin S1x300.rank)
  bcast_S1x300_S500000x300_0_1 : S1x300.BroadcastsInDim S500000x300 (![0, 1] : Fin 2 → Fin S500000x300.rank)
  bcast_S_S500000x300 : S_.BroadcastsInDim S500000x300 (![] : Fin 0 → Fin S500000x300.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  shapeCasts_S500000x1_S500000 : S500000x1.ShapeCasts S500000
  bcast_S_S25000 : S_.BroadcastsInDim S25000 (![] : Fin 0 → Fin S25000.rank)
  bcast_S500000_S500000x1_0 : S500000.BroadcastsInDim S500000x1 (![0] : Fin 1 → Fin S500000x1.rank)
  bcast_S_S500000 : S_.BroadcastsInDim S500000 (![] : Fin 0 → Fin S500000.rank)
  dot_S500000x300_S300x300_S500000x300_1_0_0_1_n_n_wf : DotDims.WF S500000x300 S300x300 S500000x300 [1] [0] [0] [1] [] []
  dot_S500000x300_S300x1_S500000x1_1_0_0_1_n_n_wf : DotDims.WF S500000x300 S300x1 S500000x1 [1] [0] [0] [1] [] []
  scatter_S25000_S500000x1_S500000_n_0_0_1_wf : ScatterDims.WF S25000 S500000x1 S500000 [] [0] [0] 1
  gather_S25000_S500000x1_S500000_n_0_n_n_0_1_1_wf : GatherDims.WF S25000 S500000x1 S500000 [] [0] [] [0] [] 1 ![1]

variable [Facts₀]

def dot_S500000x300_S300x300_S500000x300_1_0_0_1_n_n : DotDims S500000x300 S300x300 S500000x300 where
  lhsContracting := [1]
  rhsContracting := [0]
  lhsNonContracting := [0]
  rhsNonContracting := [1]
  lhsBatch := []
  rhsBatch := []
  wf := dot_S500000x300_S300x300_S500000x300_1_0_0_1_n_n_wf
def dot_S500000x300_S300x1_S500000x1_1_0_0_1_n_n : DotDims S500000x300 S300x1 S500000x1 where
  lhsContracting := [1]
  rhsContracting := [0]
  lhsNonContracting := [0]
  rhsNonContracting := [1]
  lhsBatch := []
  rhsBatch := []
  wf := dot_S500000x300_S300x1_S500000x1_1_0_0_1_n_n_wf
def scatter_S25000_S500000x1_S500000_n_0_0_1 : ScatterDims S25000 S500000x1 S500000 where
  updateWindowDims := []
  insertedWindowDims := [0]
  scatterDimsToOperandDims := [0]
  indexVectorDim := 1
  wf := scatter_S25000_S500000x1_S500000_n_0_0_1_wf
def gather_S25000_S500000x1_S500000_n_0_n_n_0_1_1 : GatherDims S25000 S500000x1 S500000 where
  offsetDims := []
  collapsedSliceDims := [0]
  operandBatchingDims := []
  startIndicesBatchingDims := []
  startIndexMap := [0]
  indexVectorDim := 1
  sliceSizes := ![1]
  wf := gather_S25000_S500000x1_S500000_n_0_n_n_0_1_1_wf

class Facts : Prop extends Facts₀ where

variable [Facts]
-- ==== Proof.Spec.lean ====
/-
  The mathematics both programs compute, stated once over the extended reals with no program in sight.

  Every atom row `x` (300 features) goes through two readout networks of one shape,
      readout x W b U d = Σ_k max (Σ_j x_j · W_jk + b_k) 0 · U_k + d,
  once with the output weights and once with the correction weights, giving per-atom columns `o` and `w`.
  The per-molecule correction then adds to every atom's output its weight times the molecule's quotient
  `(0 − Σ o) / (Σ w, or 1 where that sum is 0)`, the sums taken over the atoms that carry the molecule's id
  (a scatter-add), the quotient fetched back per atom (a gather at the id, negative ids wrapped by the count).
  The correction is one function of the two columns and the ids; the equivalence uses nothing of it beyond that.
-/
import Idealize.ShloMosaic.PureOps
import Idealize.ShloMosaic.PureOps.Ideal
import Idealize.ShloMosaic.Lib.ValueIdx

noncomputable section

namespace Cert.Readout

open Idealize.ShloMosaic Idealize.ShloMosaic.ValueIdx

/-- The shapes of the statement: atoms × features, the square and column weight matrices, the bias vectors, the per-atom
    column and vector, the per-molecule vector, a scalar. -/
abbrev AtomsByFeat : Shape := ⟨2, ![500000, 300]⟩
abbrev FeatByFeat : Shape := ⟨2, ![300, 300]⟩
abbrev FeatCol : Shape := ⟨2, ![300, 1]⟩
abbrev Feat : Shape := ⟨1, ![300]⟩
abbrev One : Shape := ⟨1, ![1]⟩
abbrev AtomsCol : Shape := ⟨2, ![500000, 1]⟩
abbrev Atoms : Shape := ⟨1, ![500000]⟩
abbrev Mols : Shape := ⟨1, ![25000]⟩
abbrev Scal : Shape := ⟨0, ![]⟩

/-- One atom's readout: a 300 → 300 linear layer, the positive part, a 300 → 1 linear layer.
    (The zero of the positive part is kept as the float word both programs write.) -/
def readout (x : Fin 300 → EReal) (W : Fin 300 → Fin 300 → EReal) (b : Fin 300 → EReal) (U : Fin 300 → EReal) (d : EReal) : EReal :=
  (∑ k : Fin 300, max ((∑ j : Fin 300, x j * W j k) + b k) (Ideal.ofBits .f32 0x00000000#32) * U k) + d

/-- The readout of every atom of the whole arrays, as a column. -/
def ffn (h : AtomsByFeat.Idx → EReal) (W : FeatByFeat.Idx → EReal) (b : Feat.Idx → EReal) (U : FeatCol.Idx → EReal)
    (d : One.Idx → EReal) : AtomsCol.Idx → EReal := fun i =>
  readout (fun j => h (ix2 (n0 := 500000) (n1 := 300) (i 0) j)) (fun j k => W (ix2 j k)) (fun k => b (ix1 k))
    (fun k => U (ix2 k (0 : Fin 1))) (d (ix1 (0 : Fin 1)))

/-- The per-molecule correction of the output column `o` by the weight column `w` under the molecule ids `seg`:
    `o + w · q[seg]` with `q = (0 − Σ_seg o) / (Σ_seg w, or 1 where that is 0)`. `sc` and `ga` say that the ids index the one
    axis of the per-molecule vector; the other arguments are the shape facts of the reshape and the broadcasts. -/
def correct (sc : ScatterDims Mols AtomsCol Atoms) (ga : GatherDims Mols AtomsCol Atoms)
    (hcast : AtomsCol.ShapeCasts Atoms) (bMols : Scal.BroadcastsInDim Mols (![] : Fin 0 → Fin Mols.rank))
    (bCol : Atoms.BroadcastsInDim AtomsCol (![0] : Fin 1 → Fin AtomsCol.rank))
    (bAtoms : Scal.BroadcastsInDim Atoms (![] : Fin 0 → Fin Atoms.rank))
    (o w : FVec Ideal AtomsCol .f32) (seg : IVec Atoms 32) : FVec Ideal AtomsCol .f32 :=
  addf o (mulf w (broadcastInDim AtomsCol ![0] bCol (Host.gather ga
    (Host.divf (F := Ideal)
      (subf (broadcastInDim Mols ![] bMols (constant (F := Ideal) Scal .f32 0x00000000#32))
        (Host.scatterAdd (F := Ideal) sc (broadcastInDim Mols ![] bMols (constant (F := Ideal) Scal .f32 0x00000000#32))
          (broadcastInDim AtomsCol ![0] bCol seg) (shapeCast _ o hcast)))
      (select
        (cmpf .oeq
          (Host.scatterAdd (F := Ideal) sc (broadcastInDim Mols ![] bMols (constant (F := Ideal) Scal .f32 0x00000000#32))
            (broadcastInDim AtomsCol ![0] bCol seg) (shapeCast _ w hcast))
          (broadcastInDim Mols ![] bMols (constant (F := Ideal) Scal .f32 0x00000000#32)))
        (broadcastInDim Mols ![] bMols (id (constant (F := Ideal) Scal .f32 0x3F800000#32)))
        (Host.scatterAdd (F := Ideal) sc (broadcastInDim Mols ![] bMols (constant (F := Ideal) Scal .f32 0x00000000#32))
          (broadcastInDim AtomsCol ![0] bCol seg) (shapeCast _ w hcast))))
    (broadcastInDim AtomsCol ![0] bCol
      (select (cmpi .slt seg (broadcastInDim Atoms ![] bAtoms (constantI Scal 32 0#32)))
        (addi seg (broadcastInDim Atoms ![] bAtoms (constantI Scal 32 25000#32))) seg)))))

end Cert.Readout

end
-- ==== Proof.KernelPayload.lean ====
/-
  The kernel body's arithmetic read at one entry of its output block: row `p` of the 2000-row block is the readout of
  that row of the loaded feature block, through the loaded weights — both matrix products as plain sums over the 300
  contracted features, the format changes the identity on the extended reals.
-/
import proofs.«135506_j53334903882077_1_alg».proof.Proof.Gen.KernelIdeal.Skeleton
import proofs.«135506_j53334903882077_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx Cert.Readout

/-- The two products' dimension records: a block of rows times the square matrix, and times the column. -/
abbrev dSq : DotDims S2000x300 S300x300 S2000x300 := dot_S2000x300_S300x300_S2000x300_1_0_0_1_n_n
abbrev dCol : DotDims S2000x300 S300x1 S2000x1 := dot_S2000x300_S300x1_S2000x1_1_0_0_1_n_n

theorem dSq_lhs0 (i : S2000x300.Idx) (q : dSq.contr.Idx) : (dSq.lhsIdx i q 0).val = (i 0).val := by
  unfold DotDims.lhsIdx
  rw [dif_neg (show ¬(0 : Fin S2000x300.rank) ∈ dSq.lhsBatch by decide), dif_pos (show (0 : Fin S2000x300.rank) ∈ dSq.lhsNonContracting by decide)]
  rfl
theorem dSq_lhs1 (i : S2000x300.Idx) (q : dSq.contr.Idx) : (dSq.lhsIdx i q 1).val = (q ⟨0, by decide⟩).val :=
  dSq.lhsIdx_val_of_single rfl i q
theorem dSq_rhs0 (i : S2000x300.Idx) (q : dSq.contr.Idx) : (dSq.rhsIdx i q 0).val = (q ⟨0, by decide⟩).val :=
  dSq.rhsIdx_val_of_single rfl i q
theorem dSq_rhs1 (i : S2000x300.Idx) (q : dSq.contr.Idx) : (dSq.rhsIdx i q 1).val = (i 1).val := by
  unfold DotDims.rhsIdx
  rw [dif_neg (show ¬(1 : Fin S300x300.rank) ∈ dSq.rhsBatch by decide), dif_pos (show (1 : Fin S300x300.rank) ∈ dSq.rhsNonContracting by decide)]
  rfl

/-- The first layer's product into a zero accumulator, at row `p` and hidden unit `k`: the sum over the features. -/
theorem layer1 (X : FVec Ideal S2000x300 .bf16) (W : FVec Ideal S300x300 .bf16) (p : Fin 2000) (k : Fin 300) :
    matmul dSq none X W (constant (F := Ideal) S2000x300 .f32 0x00000000#32) (ix2 p k) = ∑ j : Fin 300, X (ix2 p j) * W (ix2 j k) := by
  simp only [matmul]
  rw [Ideal.matmul_constant_zero_apply, ← Equiv.sum_comp (contrEquiv1 dSq 300 rfl rfl).symm]
  refine Finset.sum_congr rfl fun j _ => ?_
  have hk := contrEquiv1_symm_val dSq 300 rfl rfl j
  have el : dSq.lhsIdx (ix2 p k) ((contrEquiv1 dSq 300 rfl rfl).symm j) = ix2 p j := funext fun a => Fin.ext (by
    match a with
    | ⟨0, _⟩ => exact dSq_lhs0 _ _
    | ⟨1, _⟩ => exact (dSq_lhs1 _ _).trans hk)
  have er : dSq.rhsIdx (ix2 p k) ((contrEquiv1 dSq 300 rfl rfl).symm j) = ix2 j k := funext fun a => Fin.ext (by
    match a with
    | ⟨0, _⟩ => exact (dSq_rhs0 _ _).trans hk
    | ⟨1, _⟩ => exact dSq_rhs1 _ _)
  rw [el, er]

theorem dCol_lhs0 (i : S2000x1.Idx) (q : dCol.contr.Idx) : (dCol.lhsIdx i q 0).val = (i 0).val := by
  unfold DotDims.lhsIdx
  rw [dif_neg (show ¬(0 : Fin S2000x300.rank) ∈ dCol.lhsBatch by decide), dif_pos (show (0 : Fin S2000x300.rank) ∈ dCol.lhsNonContracting by decide)]
  rfl
theorem dCol_lhs1 (i : S2000x1.Idx) (q : dCol.contr.Idx) : (dCol.lhsIdx i q 1).val = (q ⟨0, by decide⟩).val :=
  dCol.lhsIdx_val_of_single rfl i q
theorem dCol_rhs0 (i : S2000x1.Idx) (q : dCol.contr.Idx) : (dCol.rhsIdx i q 0).val = (q ⟨0, by decide⟩).val :=
  dCol.rhsIdx_val_of_single rfl i q
theorem dCol_rhs1 (i : S2000x1.Idx) (q : dCol.contr.Idx) : (dCol.rhsIdx i q 1).val = (i 1).val := by
  unfold DotDims.rhsIdx
  rw [dif_neg (show ¬(1 : Fin S300x1.rank) ∈ dCol.rhsBatch by decide), dif_pos (show (1 : Fin S300x1.rank) ∈ dCol.rhsNonContracting by decide)]
  rfl

/-- The second layer's product into a zero accumulator, at row `p`: the sum over the hidden units. -/
theorem layer2 (Y : FVec Ideal S2000x300 .bf16) (U : FVec Ideal S300x1 .bf16) (p : Fin 2000) (q : Fin 1) :
    matmul dCol none Y U (constant (F := Ideal) S2000x1 .f32 0x00000000#32) (ix2 p q) = ∑ k : Fin 300, Y (ix2 p k) * U (ix2 k q) := by
  simp only [matmul]
  rw [Ideal.matmul_constant_zero_apply, ← Equiv.sum_comp (contrEquiv1 dCol 300 rfl rfl).symm]
  refine Finset.sum_congr rfl fun k _ => ?_
  have hk := contrEquiv1_symm_val dCol 300 rfl rfl k
  have el : dCol.lhsIdx (ix2 p q) ((contrEquiv1 dCol 300 rfl rfl).symm k) = ix2 p k := funext fun a => Fin.ext (by
    match a with
    | ⟨0, _⟩ => exact dCol_lhs0 _ _
    | ⟨1, _⟩ => exact (dCol_lhs1 _ _).trans hk)
  have er : dCol.rhsIdx (ix2 p q) ((contrEquiv1 dCol 300 rfl rfl).symm k) = ix2 k q := funext fun a => Fin.ext (by
    match a with
    | ⟨0, _⟩ => exact (dCol_rhs0 _ _).trans hk
    | ⟨1, _⟩ => exact dCol_rhs1 _ _)
  rw [el, er]

/-- The stored block at row `p`: the readout of the loaded row through the loaded weights and biases. -/
theorem pay_apply (v0 : Vec Ideal S2000x300 .f32) (v2 : Vec Ideal S300x300 .bf16) (v4 : Vec Ideal S1x300 .f32)
    (v6 : Vec Ideal S300x1 .bf16) (v8 : Vec Ideal S1x1 .f32) (p : Fin 2000) (q : Fin 1) :
    k0_pay3 (F := Ideal) v0 v2 v4 v6 v8 (ix2 p q)
      = readout (fun j => v0 (ix2 p j)) (fun j k => v2 (ix2 j k)) (fun k => v4 (ix2 (0 : Fin 1) k))
          (fun k => v6 (ix2 k (0 : Fin 1))) (v8 (ix2 (0 : Fin 1) (0 : Fin 1))) := by
  obtain rfl : q = 0 := Subsingleton.elim _ _
  unfold k0_pay3 k0_pay2 readout
  simp only [shapeCast_self]
  refine (congrArg₂ (· + ·) (layer2 _ v6 p 0) (broadcastTo_1b_ab_apply v8 broadcasts_S1x1_S2000x1 p 0)).trans ?_
  refine congrArg (· + v8 (ix2 (0 : Fin 1) (0 : Fin 1))) (Finset.sum_congr rfl fun k _ => congrArg (· * v6 (ix2 k (0 : Fin 1))) ?_)
  exact congrArg₂ max (congrArg₂ (· + ·) (layer1 _ v2 p k) (broadcastTo_1b_ab_apply v4 broadcasts_S1x300_S2000x300 p k)) rfl

/-- The weight block is the same arithmetic of the second set of weights. -/
theorem pay_wt_eq (v0 : Vec Ideal S2000x300 .f32) (v10 : Vec Ideal S300x300 .bf16) (v12 : Vec Ideal S1x300 .f32)
    (v14 : Vec Ideal S300x1 .bf16) (v16 : Vec Ideal S1x1 .f32) :
    k0_pay1 (F := Ideal) (k0_pay4 v0 v10 v12 v14) (k0_pay5 v16) = k0_pay3 v0 v10 v12 v14 v16 := rfl

end Cert.KernelIdeal.Payload

end
-- ==== Proof.KernelBlocks.lean ====
/-
  From the kernel's blocks to its two result columns. Grid point `t` handles atoms 2000·t … 2000·t + 1999: it loads
  that block of feature rows and the whole (narrowed, re-laid) weight arrays, and stores the block's readouts. So block
  `t` of each result column is block `t` of ONE column — the readout of every atom of the whole arrays — and the
  250 blocks cover the 500000 atoms.
-/
import proofs.«135506_j53334903882077_1_alg».proof.Proof.Gen.KernelIdeal.Frame
import proofs.«135506_j53334903882077_1_alg».proof.Proof.KernelPayload
import Idealize.ShloMosaic.Lib.Pipeline.Value
import Idealize.ShloMosaic.Lib.StableHlo.Run
import Idealize.ShloMosaic.Lib.ValueLayout

set_option maxRecDepth 16384

noncomputable section

namespace Cert.KernelIdeal.Blocks

open Cert.KernelIdeal Cert.KernelIdeal.Gen Cert.KernelIdeal.Payload Cert.Readout
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ)

/-! ## The arrays the region finds: the weights narrowed (the identity on the extended reals), the biases re-laid as rows -/

theorem found_W1 (c : Dev nD) : @Eq (FVec Ideal S300x300 .bf16) (V m c main_v0) (truncf (F := Ideal) (s := S300x300) .bf16 (m ((c : Thread nD τ).loc main_arg2)) bitsLt_bf16_f32) := by
  show StableHlo.after hostOps0 (fun b => m (c, b)) (Proc.devRef .tc main_v0) = _
  after_results
theorem found_U1 (c : Dev nD) : @Eq (FVec Ideal S300x1 .bf16) (V m c main_v1) (truncf (F := Ideal) (s := S300x1) .bf16 (m ((c : Thread nD τ).loc main_arg4)) bitsLt_bf16_f32) := by
  show StableHlo.after hostOps0 (fun b => m (c, b)) (Proc.devRef .tc main_v1) = _
  after_results
theorem found_W2 (c : Dev nD) : @Eq (FVec Ideal S300x300 .bf16) (V m c main_v2) (truncf (F := Ideal) (s := S300x300) .bf16 (m ((c : Thread nD τ).loc main_arg6)) bitsLt_bf16_f32) := by
  show StableHlo.after hostOps0 (fun b => m (c, b)) (Proc.devRef .tc main_v2) = _
  after_results
theorem found_U2 (c : Dev nD) : @Eq (FVec Ideal S300x1 .bf16) (V m c main_v3) (truncf (F := Ideal) (s := S300x1) .bf16 (m ((c : Thread nD τ).loc main_arg8)) bitsLt_bf16_f32) := by
  show StableHlo.after hostOps0 (fun b => m (c, b)) (Proc.devRef .tc main_v3) = _
  after_results
theorem found_b1 (c : Dev nD) : V m c main_v4 = shapeCast S1x300 (m ((c : Thread nD τ).loc main_arg3)) shapeCasts_S300_S1x300 := by
  show StableHlo.after hostOps0 (fun b => m (c, b)) (Proc.devRef .tc main_v4) = _
  after_results
  rfl
theorem found_d1 (c : Dev nD) : V m c main_v5 = shapeCast S1x1 (m ((c : Thread nD τ).loc main_arg5)) shapeCasts_S1_S1x1 := by
  show StableHlo.after hostOps0 (fun b => m (c, b)) (Proc.devRef .tc main_v5) = _
  after_results
  rfl
theorem found_b2 (c : Dev nD) : V m c main_v6 = shapeCast S1x300 (m ((c : Thread nD τ).loc main_arg7)) shapeCasts_S300_S1x300 := by
  show StableHlo.after hostOps0 (fun b => m (c, b)) (Proc.devRef .tc main_v6) = _
  after_results
  rfl
theorem found_d2 (c : Dev nD) : V m c main_v7 = shapeCast S1x1 (m ((c : Thread nD τ).loc main_arg9)) shapeCasts_S1_S1x1 := by
  show StableHlo.after hostOps0 (fun b => m (c, b)) (Proc.devRef .tc main_v7) = _
  after_results
  rfl

/-! ## The index maps over the grid -/

/-- Point `t` takes feature block `t` and writes result block `t`; every weight window sits at its one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0
    ∧ win0_10.index t (0 : Fin 2) = t.val ∧ win0_10.index t (1 : Fin 2) = 0 :=
  (by decide +kernel : ∀ t : Fin grid0.N, _)

/-! ## Each loaded block, read at an entry, is an entry of an argument array -/

/-- Row `p` of feature block `t` is row 2000·t + p of the features. -/
theorem read_feat (c : Dev nD) (t : Fin cfg0.N) (p : Fin 2000) (j : Fin 300) (i : S500000x300.Idx)
    (h0 : (i 0).val = 2000 * t.val + p.val) (h1 : (i 1).val = j.val) :
    iblk m c 0 t (ix2 p j) = m ((c : Thread nD τ).loc main_arg0) i := by
  obtain ⟨e0, e1, -⟩ := idx_facts t
  show V m c main_arg0 (((cfg0.win 0).blk t).view.emb (ix2 p j)) = _
  rw [V_main_arg0]
  refine congrArg _ (funext fun a => Fin.ext ?_)
  match a with
  | ⟨0, _⟩ => show win0_0.index t (0 : Fin 2) * 2000 + 1 * p.val = (i 0).val; omega
  | ⟨1, _⟩ => show win0_0.index t (1 : Fin 2) * 300 + 1 * j.val = (i 1).val; omega

theorem read_W1 (c : Dev nD) (t : Fin cfg0.N) (j k : Fin 300) :
    iblk m c 1 t (ix2 j k) = m ((c : Thread nD τ).loc main_arg2) (ix2 j k) := by
  obtain ⟨-, -, e0, e1, -⟩ := idx_facts t
  show V m c main_v0 (((cfg0.win 1).blk t).view.emb (ix2 j k)) = _
  rw [found_W1]
  refine congrArg (m ((c : Thread nD τ).loc main_arg2)) (funext fun a => Fin.ext ?_)
  match a with
  | ⟨0, _⟩ => show win0_1.index t (0 : Fin 2) * 300 + 1 * j.val = j.val; omega
  | ⟨1, _⟩ => show win0_1.index t (1 : Fin 2) * 300 + 1 * k.val = k.val; omega

theorem read_b1 (c : Dev nD) (t : Fin cfg0.N) (k : Fin 300) :
    iblk m c 2 t (ix2 (0 : Fin 1) k) = m ((c : Thread nD τ).loc main_arg3) (ix1 k) := by
  obtain ⟨-, -, -, -, e0, e1, -⟩ := idx_facts t
  show V m c main_v4 (((cfg0.win 2).blk t).view.emb (ix2 (0 : Fin 1) k)) = _
  rw [found_b1]
  refine (congrArg (shapeCast S1x300 (m ((c : Thread nD τ).loc main_arg3)) shapeCasts_S300_S1x300) (funext fun a => Fin.ext ?_)).trans
    (shapeCast_a_1a_apply (m ((c : Thread nD τ).loc main_arg3)) shapeCasts_S300_S1x300 (0 : Fin 1) k)
  match a with
  | ⟨0, _⟩ => show win0_2.index t (0 : Fin 2) * 1 + 1 * 0 = 0; omega
  | ⟨1, _⟩ => show win0_2.index t (1 : Fin 2) * 300 + 1 * k.val = k.val; omega

theorem read_U1 (c : Dev nD) (t : Fin cfg0.N) (k : Fin 300) :
    iblk m c 3 t (ix2 k (0 : Fin 1)) = m ((c : Thread nD τ).loc main_arg4) (ix2 k (0 : Fin 1)) := by
  obtain ⟨-, -, -, -, -, -, e0, e1, -⟩ := idx_facts t
  show V m c main_v1 (((cfg0.win 3).blk t).view.emb (ix2 k (0 : Fin 1))) = _
  rw [found_U1]
  refine congrArg (m ((c : Thread nD τ).loc main_arg4)) (funext fun a => Fin.ext ?_)
  match a with
  | ⟨0, _⟩ => show win0_3.index t (0 : Fin 2) * 300 + 1 * k.val = k.val; omega
  | ⟨1, _⟩ => show win0_3.index t (1 : Fin 2) * 1 + 1 * 0 = 0; omega

theorem read_d1 (c : Dev nD) (t : Fin cfg0.N) :
    iblk m c 4 t (ix2 (0 : Fin 1) (0 : Fin 1)) = m ((c : Thread nD τ).loc main_arg5) (ix1 (0 : Fin 1)) := by
  obtain ⟨-, -, -, -, -, -, -, -, e0, e1, -⟩ := idx_facts t
  show V m c main_v5 (((cfg0.win 4).blk t).view.emb (ix2 (0 : Fin 1) (0 : Fin 1))) = _
  rw [found_d1]
  refine (congrArg (shapeCast S1x1 (m ((c : Thread nD τ).loc main_arg5)) shapeCasts_S1_S1x1) (funext fun a => Fin.ext ?_)).trans
    (shapeCast_a_1a_apply (m ((c : Thread nD τ).loc main_arg5)) shapeCasts_S1_S1x1 (0 : Fin 1) (0 : Fin 1))
  match a with
  | ⟨0, _⟩ => show win0_4.index t (0 : Fin 2) * 1 + 1 * 0 = 0; omega
  | ⟨1, _⟩ => show win0_4.index t (1 : Fin 2) * 1 + 1 * 0 = 0; omega

theorem read_W2 (c : Dev nD) (t : Fin cfg0.N) (j k : Fin 300) :
    iblk m c 5 t (ix2 j k) = m ((c : Thread nD τ).loc main_arg6) (ix2 j k) := by
  obtain ⟨-, -, -, -, -, -, -, -, -, -, e0, e1, -⟩ := idx_facts t
  show V m c main_v2 (((cfg0.win 5).blk t).view.emb (ix2 j k)) = _
  rw [found_W2]
  refine congrArg (m ((c : Thread nD τ).loc main_arg6)) (funext fun a => Fin.ext ?_)
  match a with
  | ⟨0, _⟩ => show win0_5.index t (0 : Fin 2) * 300 + 1 * j.val = j.val; omega
  | ⟨1, _⟩ => show win0_5.index t (1 : Fin 2) * 300 + 1 * k.val = k.val; omega

theorem read_b2 (c : Dev nD) (t : Fin cfg0.N) (k : Fin 300) :
    iblk m c 6 t (ix2 (0 : Fin 1) k) = m ((c : Thread nD τ).loc main_arg7) (ix1 k) := by
  obtain ⟨-, -, -, -, -, -, -, -, -, -, -, -, e0, e1, -⟩ := idx_facts t
  show V m c main_v6 (((cfg0.win 6).blk t).view.emb (ix2 (0 : Fin 1) k)) = _
  rw [found_b2]
  refine (congrArg (shapeCast S1x300 (m ((c : Thread nD τ).loc main_arg7)) shapeCasts_S300_S1x300) (funext fun a => Fin.ext ?_)).trans
    (shapeCast_a_1a_apply (m ((c : Thread nD τ).loc main_arg7)) shapeCasts_S300_S1x300 (0 : Fin 1) k)
  match a with
  | ⟨0, _⟩ => show win0_6.index t (0 : Fin 2) * 1 + 1 * 0 = 0; omega
  | ⟨1, _⟩ => show win0_6.index t (1 : Fin 2) * 300 + 1 * k.val = k.val; omega

theorem read_U2 (c : Dev nD) (t : Fin cfg0.N) (k : Fin 300) :
    iblk m c 7 t (ix2 k (0 : Fin 1)) = m ((c : Thread nD τ).loc main_arg8) (ix2 k (0 : Fin 1)) := by
  obtain ⟨-, -, -, -, -, -, -, -, -, -, -, -, -, -, e0, e1, -⟩ := idx_facts t
  show V m c main_v3 (((cfg0.win 7).blk t).view.emb (ix2 k (0 : Fin 1))) = _
  rw [found_U2]
  refine congrArg (m ((c : Thread nD τ).loc main_arg8)) (funext fun a => Fin.ext ?_)
  match a with
  | ⟨0, _⟩ => show win0_7.index t (0 : Fin 2) * 300 + 1 * k.val = k.val; omega
  | ⟨1, _⟩ => show win0_7.index t (1 : Fin 2) * 1 + 1 * 0 = 0; omega

theorem read_d2 (c : Dev nD) (t : Fin cfg0.N) :
    iblk m c 8 t (ix2 (0 : Fin 1) (0 : Fin 1)) = m ((c : Thread nD τ).loc main_arg9) (ix1 (0 : Fin 1)) := by
  obtain ⟨-, -, -, -, -, -, -, -, -, -, -, -, -, -, -, -, e0, e1, -⟩ := idx_facts t
  show V m c main_v7 (((cfg0.win 8).blk t).view.emb (ix2 (0 : Fin 1) (0 : Fin 1))) = _
  rw [found_d2]
  refine (congrArg (shapeCast S1x1 (m ((c : Thread nD τ).loc main_arg9)) shapeCasts_S1_S1x1) (funext fun a => Fin.ext ?_)).trans
    (shapeCast_a_1a_apply (m ((c : Thread nD τ).loc main_arg9)) shapeCasts_S1_S1x1 (0 : Fin 1) (0 : Fin 1))
  match a with
  | ⟨0, _⟩ => show win0_8.index t (0 : Fin 2) * 1 + 1 * 0 = 0; omega
  | ⟨1, _⟩ => show win0_8.index t (1 : Fin 2) * 1 + 1 * 0 = 0; omega

/-! ## Result block `t` is block `t` of the whole column -/

theorem hz : (![0, 0] : Fin 2 → Nat) = fun _ => 0 := funext fun a => by fin_cases a <;> rfl

/-- The output column of the whole arrays as launched. -/
abbrev outCol (c : Dev nD) : Buf (Elt Ideal) ((c : Thread nD τ).loc main_v8_0) :=
  ffn (m ((c : Thread nD τ).loc main_arg0)) (m ((c : Thread nD τ).loc main_arg2)) (m ((c : Thread nD τ).loc main_arg3))
    (m ((c : Thread nD τ).loc main_arg4)) (m ((c : Thread nD τ).loc main_arg5))

theorem flushed9_eq (c : Dev nD) (t : Fin cfg0.N) :
    (dats m 0 c).flushed 9 t = ((cfg0.win 9).blk t).view.read (Elt Ideal) (outCol m c) := by
  show (cfg0.win 9).cut (grid0.coords t) ((dats m 0 c).after 9 t) = _
  rw [after0_9]
  unfold out0_9
  rw [View.canon_unit_zero hz]
  simp only [View.ld_unit_zero (S := S2000x300) hz, View.ld_unit_zero (S := S300x300) hz, View.ld_unit_zero (S := S1x300) hz,
    View.ld_unit_zero (S := S300x1) hz, View.ld_unit_zero (S := S1x1) hz]
  funext y
  obtain ⟨p, q, rfl⟩ : ∃ (p : Fin 2000) (q : Fin 1), y = ix2 p q := ⟨y 0, y 1, eq_ix2 y⟩
  obtain ⟨-, -, -, -, -, -, -, -, -, -, -, -, -, -, -, -, -, -, e0, e1, -⟩ := idx_facts t
  show k0_pay3 (iblk m c 0 t) (iblk m c 1 t) (iblk m c 2 t) (iblk m c 3 t) (iblk m c 4 t) (ix2 p q)
    = outCol m c (((cfg0.win 9).blk t).view.emb (ix2 p q))
  refine (pay_apply _ _ _ _ _ p q).trans ?_
  exact congr (congr (congr (congr (congrArg readout
      (funext fun j => read_feat m c t p j _
        (by show win0_9.index t (0 : Fin 2) * 2000 + 1 * p.val = 2000 * t.val + p.val; omega) rfl))
      (funext fun j => funext fun k => read_W1 m c t j k))
      (funext fun k => read_b1 m c t k))
      (funext fun k => read_U1 m c t k))
      (read_d1 m c t)

/-- The weight column of the whole arrays as launched. -/
abbrev wtCol (c : Dev nD) : Buf (Elt Ideal) ((c : Thread nD τ).loc main_v8_1) :=
  ffn (m ((c : Thread nD τ).loc main_arg0)) (m ((c : Thread nD τ).loc main_arg6)) (m ((c : Thread nD τ).loc main_arg7))
    (m ((c : Thread nD τ).loc main_arg8)) (m ((c : Thread nD τ).loc main_arg9))

theorem flushed10_eq (c : Dev nD) (t : Fin cfg0.N) :
    (dats m 0 c).flushed 10 t = ((cfg0.win 10).blk t).view.read (Elt Ideal) (wtCol m c) := by
  show (cfg0.win 10).cut (grid0.coords t) ((dats m 0 c).after 10 t) = _
  rw [after0_10]
  unfold out0_10
  rw [View.canon_unit_zero hz]
  simp only [View.ld_unit_zero (S := S2000x300) hz, View.ld_unit_zero (S := S300x300) hz, View.ld_unit_zero (S := S1x300) hz,
    View.ld_unit_zero (S := S300x1) hz, View.ld_unit_zero (S := S1x1) hz]
  funext y
  obtain ⟨p, q, rfl⟩ : ∃ (p : Fin 2000) (q : Fin 1), y = ix2 p q := ⟨y 0, y 1, eq_ix2 y⟩
  obtain ⟨-, -, -, -, -, -, -, -, -, -, -, -, -, -, -, -, -, -, -, -, e0, e1⟩ := idx_facts t
  show k0_pay1 (k0_pay4 (iblk m c 0 t) (iblk m c 5 t) (iblk m c 6 t) (iblk m c 7 t)) (k0_pay5 (iblk m c 8 t)) (ix2 p q)
    = wtCol m c (((cfg0.win 10).blk t).view.emb (ix2 p q))
  refine (congrFun (pay_wt_eq _ _ _ _ _) (ix2 p q)).trans ((pay_apply _ _ _ _ _ p q).trans ?_)
  exact congr (congr (congr (congr (congrArg readout
      (funext fun j => read_feat m c t p j _
        (by show win0_10.index t (0 : Fin 2) * 2000 + 1 * p.val = 2000 * t.val + p.val; omega) rfl))
      (funext fun j => funext fun k => read_W2 m c t j k))
      (funext fun k => read_b2 m c t k))
      (funext fun k => read_U2 m c t k))
      (read_d2 m c t)

/-! ## The 250 blocks cover the atoms: each result array ends holding its whole column -/

theorem mem_blk9 (t : Fin cfg0.N) (i : S500000x1.Idx) :
    i ∈ ((cfg0.win 9).blk t).view.set ↔ ∀ a : Fin 2, win0_9.index t a * S2000x1.size a ≤ (i a).val ∧ (i a).val < win0_9.index t a * S2000x1.size a + S2000x1.size a := by
  show i ∈ ((View.whole main_v8_0).slice (win0_9.rect t)).set ↔ _
  rw [View.set_slice_whole, Rect.mem_set_unit]
  exact Iff.rfl

theorem mem_blk10 (t : Fin cfg0.N) (i : S500000x1.Idx) :
    i ∈ ((cfg0.win 10).blk t).view.set ↔ ∀ a : Fin 2, win0_10.index t a * S2000x1.size a ≤ (i a).val ∧ (i a).val < win0_10.index t a * S2000x1.size a + S2000x1.size a := by
  show i ∈ ((View.whole main_v8_1).slice (win0_10.rect t)).set ↔ _
  rw [View.set_slice_whole, Rect.mem_set_unit]
  exact Iff.rfl

/-- Atom `r` is in the block of point `r / 2000`. -/
theorem cover9 (i : S500000x1.Idx) : ∃ t : Fin cfg0.N, (cfg0.win 9).flush t = true ∧ i ∈ ((cfg0.win 9).blk t).view.set := by
  have hi0 : (i 0).val < 500000 := (i 0).isLt
  have hi1 : (i 1).val < 1 := (i 1).isLt
  have hN : grid0.N = 250 := N_0
  have ht : (i 0).val / 2000 < cfg0.N := by show (i 0).val / 2000 < grid0.N; omega
  obtain ⟨-, -, -, -, -, -, -, -, -, -, -, -, -, -, -, -, -, -, e0, e1, -⟩ := idx_facts ⟨(i 0).val / 2000, ht⟩
  refine ⟨⟨(i 0).val / 2000, ht⟩, flush0_9 _, ?_⟩
  rw [mem_blk9]
  intro a
  match a with
  | ⟨0, _⟩ =>
    show win0_9.index ⟨(i 0).val / 2000, ht⟩ (0 : Fin 2) * 2000 ≤ (i 0).val ∧ (i 0).val < win0_9.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win0_9.index ⟨(i 0).val / 2000, ht⟩ (1 : Fin 2) * 1 ≤ (i 1).val ∧ (i 1).val < win0_9.index ⟨(i 0).val / 2000, ht⟩ (1 : Fin 2) * 1 + 1
    rw [e1]; omega

theorem cover10 (i : S500000x1.Idx) : ∃ t : Fin cfg0.N, (cfg0.win 10).flush t = true ∧ i ∈ ((cfg0.win 10).blk t).view.set := by
  have hi0 : (i 0).val < 500000 := (i 0).isLt
  have hi1 : (i 1).val < 1 := (i 1).isLt
  have hN : grid0.N = 250 := N_0
  have ht : (i 0).val / 2000 < cfg0.N := by show (i 0).val / 2000 < grid0.N; omega
  obtain ⟨-, -, -, -, -, -, -, -, -, -, -, -, -, -, -, -, -, -, -, -, e0, e1⟩ := idx_facts ⟨(i 0).val / 2000, ht⟩
  refine ⟨⟨(i 0).val / 2000, ht⟩, flush0_10 _, ?_⟩
  rw [mem_blk10]
  intro a
  match a with
  | ⟨0, _⟩ =>
    show win0_10.index ⟨(i 0).val / 2000, ht⟩ (0 : Fin 2) * 2000 ≤ (i 0).val ∧ (i 0).val < win0_10.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win0_10.index ⟨(i 0).val / 2000, ht⟩ (1 : Fin 2) * 1 ≤ (i 1).val ∧ (i 1).val < win0_10.index ⟨(i 0).val / 2000, ht⟩ (1 : Fin 2) * 1 + 1
    rw [e1]; omega

/-- The output array after the run is the output column of the whole arrays. -/
theorem final9 (c : Dev nD) : (dats m 0 c).arrAt 9 cfg0.N = outCol m c :=
  (dats m 0 c).arrAt_eq_of_cover 9 (outCol m c) (fun t _ => flushed9_eq m c t) cover9

/-- The weight array after the run is the weight column of the whole arrays. -/
theorem final10 (c : Dev nD) : (dats m 0 c).arrAt 10 cfg0.N = wtCol m c :=
  (dats m 0 c).arrAt_eq_of_cover 10 (wtCol m c) (fun t _ => flushed10_eq m c t) cover10

end Cert.KernelIdeal.Blocks

end
-- ==== Proof.KernelRun.lean ====
/-
  The kernel program's run, read: after the region the two result arrays hold the output and weight columns of the whole
  arrays, and the host operations that follow apply the per-molecule correction to them under the ids.
-/
import proofs.«135506_j53334903882077_1_alg».proof.Proof.Gen.KernelIdeal.Frame
import proofs.«135506_j53334903882077_1_alg».proof.Proof.KernelBlocks
import Idealize.ShloMosaic.Lib.StableHlo.Run

set_option maxRecDepth 16384

noncomputable section

namespace Cert.KernelIdeal.Run

open Cert.KernelIdeal Cert.KernelIdeal.Gen Cert.KernelIdeal.Blocks Cert.Readout
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-- The host operations after the region, run from any contents of the buffers: the correction of what the two result
    arrays hold, under the ids. -/
theorem tail_of (Wv : Valuation τ sig (Elt Ideal)) :
    StableHlo.after (List.flatten [hostOps1, hostOps1_1, hostOps1_2]) Wv (Proc.devRef .tc main_v32)
      = correct scatter_S25000_S500000x1_S500000_n_0_0_1 gather_S25000_S500000x1_S500000_n_0_n_n_0_1_1
          Facts₀.shapeCasts_S500000x1_S500000 Facts₀.bcast_S_S25000 Facts₀.bcast_S500000_S500000x1_0 Facts₀.bcast_S_S500000
          (Wv (Proc.devRef .tc main_v8_0)) (Wv (Proc.devRef .tc main_v8_1)) (Wv (Proc.devRef .tc main_arg1)) := by
  simp only [hostOps1, hostOps1_1, hostOps1_2, List.flatten_cons, List.flatten_nil, List.append_nil, List.cons_append, List.nil_append]
  after_results_simp
  unfold correct
  simp only [cast_eq]
  rfl

/-- After the region the two result arrays hold what the pipeline left and the ids are as launched. -/
theorem tail_eq (c : Dev nD) :
    Pipeline.afterTail₀ cfgs (dats m) 0 (V0 m) [hostOps1, hostOps1_1, hostOps1_2] c main_v32
      = correct scatter_S25000_S500000x1_S500000_n_0_0_1 gather_S25000_S500000x1_S500000_n_0_n_n_0_1_1
          Facts₀.shapeCasts_S500000x1_S500000 Facts₀.bcast_S_S25000 Facts₀.bcast_S500000_S500000x1_0 Facts₀.bcast_S_S500000
          ((dats m 0 c).arrAt 9 cfg0.N) ((dats m 0 c).arrAt 10 cfg0.N) (m ((c : Thread nD τ).loc main_arg1)) := by
  unfold Pipeline.afterTail₀
  have h9 : Pipeline.withArrays (cfgs 0).spec c (V0 m c) (fun w => (dats m 0 c).arrAt w (cfgs 0).N) (Proc.devRef .tc main_v8_0)
      = (dats m 0 c).arrAt 9 cfg0.N := Pipeline.withArrays_arr spec0 launch0.win.arr_inj c _ _ 9
  have h10 : Pipeline.withArrays (cfgs 0).spec c (V0 m c) (fun w => (dats m 0 c).arrAt w (cfgs 0).N) (Proc.devRef .tc main_v8_1)
      = (dats m 0 c).arrAt 10 cfg0.N := Pipeline.withArrays_arr spec0 launch0.win.arr_inj c _ _ 10
  have h1 : Pipeline.withArrays (cfgs 0).spec c (V0 m c) (fun w => (dats m 0 c).arrAt w (cfgs 0).N) (Proc.devRef .tc main_arg1)
      = m ((c : Thread nD τ).loc main_arg1) :=
    (Pipeline.withArrays_of_ne _ c (V0 m c) _ main_arg1 (by exact (by decide : ∀ w, Pipeline.arrRef spec0 w ≠ main_arg1))).trans (V_main_arg1 m c)
  refine (tail_of _).trans ?_
  exact congr (congr (congrArg (correct scatter_S25000_S500000x1_S500000_n_0_0_1 gather_S25000_S500000x1_S500000_n_0_n_n_0_1_1
    Facts₀.shapeCasts_S500000x1_S500000 Facts₀.bcast_S_S25000 Facts₀.bcast_S500000_S500000x1_0 Facts₀.bcast_S_S500000) h9) h10) h1

/-- The kernel program's run re-posted: the result is the correction of the two readout columns of the whole arrays under
    the ids, and the arguments end unchanged. -/
theorem run : θ_run defs (onTc (τ := τ) (main (F := Ideal))) ⟨m, fun _ => 0, ρ⟩ (fun r => ∀ c : Dev nD,
      r.2.mem ((c.tc : Thread nD τ).loc main_v32)
        = correct scatter_S25000_S500000x1_S500000_n_0_0_1 gather_S25000_S500000x1_S500000_n_0_n_n_0_1_1
            Facts₀.shapeCasts_S500000x1_S500000 Facts₀.bcast_S_S25000 Facts₀.bcast_S500000_S500000x1_0 Facts₀.bcast_S_S500000
            (ffn (m ((c.tc : Thread nD τ).loc main_arg0)) (m ((c.tc : Thread nD τ).loc main_arg2)) (m ((c.tc : Thread nD τ).loc main_arg3))
              (m ((c.tc : Thread nD τ).loc main_arg4)) (m ((c.tc : Thread nD τ).loc main_arg5)))
            (ffn (m ((c.tc : Thread nD τ).loc main_arg0)) (m ((c.tc : Thread nD τ).loc main_arg6)) (m ((c.tc : Thread nD τ).loc main_arg7))
              (m ((c.tc : Thread nD τ).loc main_arg8)) (m ((c.tc : Thread nD τ).loc main_arg9)))
            (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨((h c).2 main_v32 (Pipeline.mem_restRefs_of main_v32 (by decide) (by decide))).trans
        ((tail_eq m c).trans (by rw [final9, final10])),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c)⟩)
    (run_main m ρ)

end Cert.KernelIdeal.Run

end
-- ==== Proof.ReferenceValue.lean ====
/-
  The reference's two per-atom columns are the readout of every atom: each `dot_general` a sum over the 300 contracted
  features, the biases broadcast along the atoms, `relu` the maximum with zero.
-/
import proofs.«135506_j53334903882077_1_alg».proof.Proof.Gen.ReferenceIdeal.Read
import proofs.«135506_j53334903882077_1_alg».proof.Proof.Spec

noncomputable section

namespace Cert.ReferenceIdeal.RefValue

open Cert.ReferenceIdeal Cert.ReferenceIdeal.Gen Cert.ReferenceIdeal.Read Cert.Readout
open Idealize.ShloMosaic Idealize.ShloMosaic.TcCoe Idealize.ShloMosaic.ValueIdx Idealize.SL.Sem

/-- The output column. -/
theorem out_eq (x0 : (⟨S500000x300, .f32⟩ : BufTy).Contents (Elt Ideal)) (x2 : (⟨S300x300, .f32⟩ : BufTy).Contents (Elt Ideal))
    (x3 : (⟨S300, .f32⟩ : BufTy).Contents (Elt Ideal)) (x4 : (⟨S300x1, .f32⟩ : BufTy).Contents (Elt Ideal))
    (x5 : (⟨S1, .f32⟩ : BufTy).Contents (Elt Ideal)) :
    val_main_v8 (F := Ideal) x0 x2 x3 x4 x5 = ffn x0 x2 x3 x4 x5 := by
  funext i
  have hi1 : (i 1).val = 0 := by have h : (i 1).val < 1 := (i 1).isLt; omega
  have e1 : ∀ k : Fin 300, ridx_main_v5 i k = ix2 k (0 : Fin 1) := fun k => funext fun a => Fin.ext (by
    match a with
    | ⟨0, _⟩ => rfl
    | ⟨1, _⟩ => exact hi1)
  have e2 : ∀ k j : Fin 300, lidx_main_v0 (lidx_main_v5 i k) j = ix2 (n0 := 500000) (n1 := 300) (i 0) j := fun k j => funext fun a => Fin.ext (by
    match a with
    | ⟨0, _⟩ => rfl
    | ⟨1, _⟩ => rfl)
  have e3 : ∀ k j : Fin 300, ridx_main_v0 (lidx_main_v5 i k) j = ix2 j k := fun k j => funext fun a => Fin.ext (by
    match a with
    | ⟨0, _⟩ => rfl
    | ⟨1, _⟩ => rfl)
  have e4 : ∀ k : Fin 300, idx_main_v1 (idx_main_v2 (lidx_main_v5 i k)) = ix1 k := fun k => funext fun a => Fin.ext (by
    match a with
    | ⟨0, _⟩ => rfl)
  have e5 : idx_main_v6 (idx_main_v7 i) = ix1 (0 : Fin 1) := funext fun a => Fin.ext (by
    match a with
    | ⟨0, _⟩ => rfl)
  rw [val_main_v8_apply, val_main_v5_apply, val_main_v7_apply, val_main_v6_apply, e5]
  unfold ffn readout
  refine congrArg₂ (· + ·) (Finset.sum_congr rfl fun k _ => ?_) rfl
  rw [val_main_v4_apply, val_main_v3_apply, val_main_v0_apply, val_main_v2_apply, val_main_v1_apply,
    val_main_call0_v0_apply, val_main_call0_cst_apply, e1, e4]
  simp only [e2, e3]
  rfl

/-- The weight column. -/
theorem wt_eq (x0 : (⟨S500000x300, .f32⟩ : BufTy).Contents (Elt Ideal)) (x6 : (⟨S300x300, .f32⟩ : BufTy).Contents (Elt Ideal))
    (x7 : (⟨S300, .f32⟩ : BufTy).Contents (Elt Ideal)) (x8 : (⟨S300x1, .f32⟩ : BufTy).Contents (Elt Ideal))
    (x9 : (⟨S1, .f32⟩ : BufTy).Contents (Elt Ideal)) :
    val_main_v17 (F := Ideal) x0 x6 x7 x8 x9 = ffn x0 x6 x7 x8 x9 := by
  funext i
  have hi1 : (i 1).val = 0 := by have h : (i 1).val < 1 := (i 1).isLt; omega
  have e1 : ∀ k : Fin 300, ridx_main_v14 i k = ix2 k (0 : Fin 1) := fun k => funext fun a => Fin.ext (by
    match a with
    | ⟨0, _⟩ => rfl
    | ⟨1, _⟩ => exact hi1)
  have e2 : ∀ k j : Fin 300, lidx_main_v9 (lidx_main_v14 i k) j = ix2 (n0 := 500000) (n1 := 300) (i 0) j := fun k j => funext fun a => Fin.ext (by
    match a with
    | ⟨0, _⟩ => rfl
    | ⟨1, _⟩ => rfl)
  have e3 : ∀ k j : Fin 300, ridx_main_v9 (lidx_main_v14 i k) j = ix2 j k := fun k j => funext fun a => Fin.ext (by
    match a with
    | ⟨0, _⟩ => rfl
    | ⟨1, _⟩ => rfl)
  have e4 : ∀ k : Fin 300, idx_main_v10 (idx_main_v11 (lidx_main_v14 i k)) = ix1 k := fun k => funext fun a => Fin.ext (by
    match a with
    | ⟨0, _⟩ => rfl)
  have e5 : idx_main_v15 (idx_main_v16 i) = ix1 (0 : Fin 1) := funext fun a => Fin.ext (by
    match a with
    | ⟨0, _⟩ => rfl)
  rw [val_main_v17_apply, val_main_v14_apply, val_main_v16_apply, val_main_v15_apply, e5]
  unfold ffn readout
  refine congrArg₂ (· + ·) (Finset.sum_congr rfl fun k _ => ?_) rfl
  rw [val_main_v13_apply, val_main_v12_apply, val_main_v9_apply, val_main_v11_apply, val_main_v10_apply,
    val_main_call1_v0_apply, val_main_call1_cst_apply, e1, e4]
  simp only [e2, e3]
  rfl

/-- The reference's result is the correction of the two columns under the ids. -/
theorem result_eq (m : (ℓ : Loc nD τ sig) → Buf (Elt Ideal) ℓ) (c : Dev nD) :
    Cert.ReferenceIdeal.Value.res_main_v41 m c
      = correct scatter_S25000_S500000x1_S500000_n_0_0_1 gather_S25000_S500000x1_S500000_n_0_n_n_0_1_1
          Facts₀.shapeCasts_S500000x1_S500000 Facts₀.bcast_S_S25000 Facts₀.bcast_S500000_S500000x1_0 Facts₀.bcast_S_S500000
          (val_main_v8 (F := Ideal) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)))
          (val_main_v17 (F := Ideal) (m ((c.tc : Thread nD τ).loc main_arg0)) (m ((c.tc : Thread nD τ).loc main_arg6)) (m ((c.tc : Thread nD τ).loc main_arg7)) (m ((c.tc : Thread nD τ).loc main_arg8)) (m ((c.tc : Thread nD τ).loc main_arg9)))
          (m ((c.tc : Thread nD τ).loc main_arg1)) := by
  unfold Cert.ReferenceIdeal.Value.res_main_v41 correct; rfl

end Cert.ReferenceIdeal.RefValue

end
-- ==== Proof.lean ====
/-
  The claim: a per-atom readout (two 300 → 300 → 1 networks over 500000 atom rows) followed by a per-molecule
  correction of the first network's outputs by the second's, computed by a kernel that tiles the atoms in 250 blocks of
  2000 rows and feeds the matrix unit narrowed operands, is — on the extended reals, where the narrowing is the
  identity and a sum has no order — the same function of the arguments as the reference, which takes the two matrix
  products over the whole arrays.

  The kernel side: at one entry the stored block is the readout of that atom's row (Proof/KernelPayload.lean); the
  blocks are the restrictions of ONE column per network and cover the atoms (Proof/KernelBlocks.lean); the host
  operations after the region are the correction applied to the two columns (Proof/KernelRun.lean). The reference
  side: its two columns are the same readouts and its remaining operations the same correction
  (Proof/ReferenceValue.lean). The correction itself (two scatter-adds by molecule id, a guarded quotient, a gather) is
  one function of the columns and the ids on both sides (Proof/Spec.lean), and nothing of it is used beyond that; no
  law is used that would need the inputs finite. The idealized kernel is the kernel's own text with no operation rewritten, so that claim is trivial.
-/
import proofs.«135506_j53334903882077_1_alg».proof.Defs
import proofs.«135506_j53334903882077_1_alg».proof.Proof.Gen.Kernel
import proofs.«135506_j53334903882077_1_alg».proof.Proof.Gen.Kernel.Skeleton
import proofs.«135506_j53334903882077_1_alg».proof.Proof.Gen.Kernel.Launch
import proofs.«135506_j53334903882077_1_alg».proof.Proof.Gen.Kernel.Points
import proofs.«135506_j53334903882077_1_alg».proof.Proof.Gen.Kernel.Frame
import proofs.«135506_j53334903882077_1_alg».proof.Proof.Gen.KernelIdeal
import proofs.«135506_j53334903882077_1_alg».proof.Proof.Gen.KernelIdeal.Skeleton
import proofs.«135506_j53334903882077_1_alg».proof.Proof.Gen.KernelIdeal.Launch
import proofs.«135506_j53334903882077_1_alg».proof.Proof.Gen.KernelIdeal.Points
import proofs.«135506_j53334903882077_1_alg».proof.Proof.Gen.KernelIdeal.Frame
import proofs.«135506_j53334903882077_1_alg».proof.Proof.Gen.ReferenceIdeal
import proofs.«135506_j53334903882077_1_alg».proof.Proof.Gen.ReferenceIdeal.Run
import proofs.«135506_j53334903882077_1_alg».proof.Proof.Gen.ReferenceIdeal.Read
import proofs.«135506_j53334903882077_1_alg».proof.Proof.Gen.Pre_finite_inputs
import proofs.«135506_j53334903882077_1_alg».proof.Proof.KernelRun
import proofs.«135506_j53334903882077_1_alg».proof.Proof.ReferenceValue
import Idealize.ShloMosaic.Adequacy
import Idealize.ShloMosaic.Init

noncomputable section

namespace Cert.Proof

open Idealize.ShloMosaic Idealize.SL.Sem Cert.Readout

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The two programs' dimension records of the scatter-add and of the gather are the same records. -/
theorem scatter_eq : (Cert.ReferenceIdeal.scatter_S25000_S500000x1_S500000_n_0_0_1 : ScatterDims Mols AtomsCol Atoms)
    = Cert.KernelIdeal.scatter_S25000_S500000x1_S500000_n_0_0_1 := rfl
theorem gather_eq : (Cert.ReferenceIdeal.gather_S25000_S500000x1_S500000_n_0_n_n_0_1_1 : GatherDims Mols AtomsCol Atoms)
    = Cert.KernelIdeal.gather_S25000_S500000x1_S500000_n_0_n_n_0_1_1 := rfl

/-- Both runs end with the correction of the same two readout columns under the same ids. -/
theorem algebraic : Cert.algebraic_KernelIdeal_ReferenceIdeal := by
  intro m ρ m' ρ' _ hagree
  refine ⟨_, Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9⟩ := hagree c
  rw [Cert.ReferenceIdeal.RefValue.result_eq, Cert.ReferenceIdeal.RefValue.out_eq, Cert.ReferenceIdeal.RefValue.wt_eq,
    a0, a1, a2, a3, a4, a5, a6, a7, a8, a9, scatter_eq, gather_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
